-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S16384x64 : Shape := ⟨2, ![16384, 64]⟩
abbrev S8192x1 : Shape := ⟨2, ![8192, 1]⟩
abbrev S8192x16384 : Shape := ⟨2, ![8192, 16384]⟩
abbrev S64x64 : Shape := ⟨2, ![64, 64]⟩
abbrev S64 : Shape := ⟨1, ![64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S8192x1 : S_.BroadcastsInDim S8192x1 (![] : Fin 0 → Fin S8192x1.rank)
  reducesTo_S8192x1_S_d0_1 : S8192x1.ReducesTo [0, 1] S_
  bcast_S_S8192x16384 : S_.BroadcastsInDim S8192x16384 (![] : Fin 0 → Fin S8192x16384.rank)
  reducesTo_S8192x16384_S_d0_1 : S8192x16384.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S64x64 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S8192x16384 .f32) (main_arg5 : FVec F S8192x16384 .f32) (main_arg6 : FVec F S64x64 .f32) (main_arg7 : FVec F S64 .f32) (main_arg8 : FVec F S64x64 .f32) (main_arg9 : FVec F S64 .f32) (main_v13 : IVec S_ 1) (main_v16 : IVec S8192x1 1) : IVec S_ 1 :=
  let main_c_5 : IVec S_ 1 := constantI S_ 1 1#1
  let main_v17 : IVec S_ 1 := (fun x v => Host.reduce IntOp.andi x v reducesTo_S8192x1_S_d0_1 h_S_) main_v16 main_c_5
  let main_v18 : IVec S_ 1 := andi main_v13 main_v17
  let main_v19 : FVec F S8192x16384 .f32 := Host.absf main_arg4
  let main_cst_6 : FVec F S_ .f32 := constant S_ .f32 0x7F800000#32
  let main_v20 : FVec F S8192x16384 .f32 := broadcastInDim S8192x16384 ![] bcast_S_S8192x16384 main_cst_6
  let main_v21 : IVec S8192x16384 1 := cmpf .olt main_v19 main_v20
  let main_c_7 : IVec S_ 1 := constantI S_ 1 1#1
  let main_v22 : IVec S_ 1 := (fun x v => Host.reduce IntOp.andi x v reducesTo_S8192x16384_S_d0_1 h_S_) main_v21 main_c_7
  let main_v23 : IVec S_ 1 := andi main_v18 main_v22
  let main_v24 : FVec F S8192x16384 .f32 := Host.absf main_arg5
  let main_cst_8 : FVec F S_ .f32 := constant S_ .f32 0x7F800000#32
  let main_v25 : FVec F S8192x16384 .f32 := broadcastInDim S8192x16384 ![] bcast_S_S8192x16384 main_cst_8
  let main_v26 : IVec S8192x16384 1 := cmpf .olt main_v24 main_v25
  let main_c_9 : IVec S_ 1 := constantI S_ 1 1#1
  let main_v27 : IVec S_ 1 := (fun x v => Host.reduce IntOp.andi x v reducesTo_S8192x16384_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x64 .f32) (main_arg1 : FVec F S16384x64 .f32) (main_arg2 : FVec F S8192x1 .f32) (main_arg3 : FVec F S8192x1 .f32) (main_arg4 : FVec F S8192x16384 .f32) (main_arg5 : FVec F S8192x16384 .f32) (main_arg6 : FVec F S64x64 .f32) (main_arg7 : FVec F S64 .f32) (main_arg8 : FVec F S64x64 .f32) (main_arg9 : FVec F S64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S8192x1 .f32 := Host.absf main_arg2
  let main_cst_2 : FVec F S_ .f32 := constant S_ .f32 0x7F800000#32
  let main_v10 : FVec F S8192x1 .f32 := broadcastInDim S8192x1 ![] bcast_S_S8192x1 main_cst_2
  let main_v11 : IVec S8192x1 1 := cmpf .olt main_v9 main_v10
  let main_c_3 : IVec S_ 1 := constantI S_ 1 1#1
  let main_v12 : IVec S_ 1 := (fun x v => Host.reduce IntOp.andi x v reducesTo_S8192x1_S_d0_1 h_S_) main_v11 main_c_3
  let main_v13 : IVec S_ 1 := andi main_v8 main_v12
  let main_v14 : FVec F S8192x1 .f32 := Host.absf main_arg3
  let main_cst_4 : FVec F S_ .f32 := constant S_ .f32 0x7F800000#32
  let main_v15 : FVec F S8192x1 .f32 := broadcastInDim S8192x1 ![] bcast_S_S8192x1 main_cst_4
  let main_v16 : IVec S8192x1 1 := cmpf .olt main_v14 main_v15
  fn_part1 (F := F) main_arg4 main_arg5 main_arg6 main_arg7 main_arg8 main_arg9 main_v13 main_v16
-- ==== Kernel.lean ====
abbrev S8192x64 : Shape := ⟨2, ![8192, 64]⟩
abbrev S16384x64 : Shape := ⟨2, ![16384, 64]⟩
abbrev S8192x1 : Shape := ⟨2, ![8192, 1]⟩
abbrev S8192x16384 : Shape := ⟨2, ![8192, 16384]⟩
abbrev S64x64 : Shape := ⟨2, ![64, 64]⟩
abbrev S64 : Shape := ⟨1, ![64]⟩
abbrev S1x64 : Shape := ⟨2, ![1, 64]⟩
abbrev S1024x64 : Shape := ⟨2, ![1024, 64]⟩
abbrev S1024x2048 : Shape := ⟨2, ![1024, 2048]⟩
abbrev S2048x64 : Shape := ⟨2, ![2048, 64]⟩

abbrev nBuf : Space → Nat
  | .hbm => 15
  | .vmem => 12
  | .smem => 0
  | _ => 0

abbrev bufTy : (tb : Table) → Fin (tcTables nBuf tb) → BufTy
  | .hbm, ⟨0, _⟩ => ⟨S8192x64, .f32⟩
  | .hbm, ⟨1, _⟩ => ⟨S16384x64, .f32⟩
  | .hbm, ⟨2, _⟩ => ⟨S8192x1, .f32⟩
  | .hbm, ⟨3, _⟩ => ⟨S8192x1, .f32⟩
  | .hbm, ⟨4, _⟩ => ⟨S8192x16384, .f32⟩
  | .hbm, ⟨5, _⟩ => ⟨S8192x16384, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x64, .f32⟩
  | .hbm, ⟨12, _⟩ => ⟨S1x64, .f32⟩
  | .hbm, ⟨13, _⟩ => ⟨S1x64, .f32⟩
  | .hbm, ⟨14, _⟩ => ⟨S8192x64, .f32⟩
  | .local _ .vmem, ⟨0, _⟩ => ⟨S1024x64, .f32⟩
  | .local _ .vmem, ⟨1, _⟩ => ⟨S1024x64, .f32⟩
  | .local _ .vmem, ⟨2, _⟩ => ⟨S1024x2048, .f32⟩
  | .local _ .vmem, ⟨3, _⟩ => ⟨S1024x2048, .f32⟩
  | .local _ .vmem, ⟨4, _⟩ => ⟨S16384x64, .f32⟩
  | .local _ .vmem, ⟨5, _⟩ => ⟨S64x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16384x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  transposes_S64x64_S64x64_1_0 : S64x64.Transposes [1, 0] S64x64
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  h_S2048x64 : 0 < S2048x64.numel
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  dot_S1024x2048_S2048x64_S1024x64_1_0_0_1_n_n_wf : DotDims.WF S1024x2048 S2048x64 S1024x64 [1] [0] [0] [1] [] []
  dot_S1024x64_S64x64_S1024x64_1_0_0_1_n_n_wf : DotDims.WF S1024x64 S64x64 S1024x64 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x64.size a ≤ S16384x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x16384.size a
  hwx0_1 : ∀ i : grid0.Coords, EltTy.bits .f32 = 32 ∨ (Rect.block (s := S8192x16384) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16384x64.size a ≤ S16384x64.size a
  hwx0_2 : ∀ i : grid0.Coords, EltTy.bits .f32 = 32 ∨ (Rect.block (s := S16384x64) S16384x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S8192x64.size a
  hwx0_7 : ∀ i : grid0.Coords, EltTy.bits .f32 = 32 ∨ (Rect.block (s := S8192x64) S1024x64.size (cc0_transform_7 i) (hinb0_7 i)).WholeWords (EltTy.packing .f32)

variable [Facts₀]

def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S16384x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1024x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x64 : Shape := ⟨2, ![8192, 64]⟩
abbrev S16384x64 : Shape := ⟨2, ![16384, 64]⟩
abbrev S8192x1 : Shape := ⟨2, ![8192, 1]⟩
abbrev S8192x16384 : Shape := ⟨2, ![8192, 16384]⟩
abbrev S64x64 : Shape := ⟨2, ![64, 64]⟩
abbrev S64 : Shape := ⟨1, ![64]⟩
abbrev S1x64 : Shape := ⟨2, ![1, 64]⟩

abbrev nBuf : Space → Nat
  | .hbm => 22
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S16384x64, .f32⟩
  | .hbm, ⟨2, _⟩ => ⟨S8192x1, .f32⟩
  | .hbm, ⟨3, _⟩ => ⟨S8192x1, .f32⟩
  | .hbm, ⟨4, _⟩ => ⟨S8192x16384, .f32⟩
  | .hbm, ⟨5, _⟩ => ⟨S8192x16384, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S8192x64, .f32⟩
  | .hbm, ⟨11, _⟩ => ⟨S64x64, .f32⟩
  | .hbm, ⟨12, _⟩ => ⟨S8192x64, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S64x64, .f32⟩
  | .hbm, ⟨17, _⟩ => ⟨S8192x64, .f32⟩
  | .hbm, ⟨18, _⟩ => ⟨S8192x64, .f32⟩
  | .hbm, ⟨19, _⟩ => ⟨S1x64, .f32⟩
  | .hbm, ⟨20, _⟩ => ⟨S8192x64, .f32⟩
  | .hbm, ⟨21, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S8192x16384_S16384x64_S8192x64_1_0_0_1_n_n_wf : DotDims.WF S8192x16384 S16384x64 S8192x64 [1] [0] [0] [1] [] []
  dot_S8192x64_S64x64_S8192x64_1_0_0_1_n_n_wf : DotDims.WF S8192x64 S64x64 S8192x64 [1] [0] [0] [1] [] []

variable [Facts₀]

def dot_S8192x16384_S16384x64_S8192x64_1_0_0_1_n_n : DotDims S8192x16384 S16384x64 S8192x64 where
  lhsContracting := [1]
  rhsContracting := [0]
  lhsNonContracting := [0]
  rhsNonContracting := [1]
  lhsBatch := []
  rhsBatch := []
  wf := dot_S8192x16384_S16384x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

class Facts : Prop extends Facts₀ where

variable [Facts]
-- ==== Proof.Spec.lean ====
/-
  What both programs compute, as one function of the argument arrays, index by index, on the extended reals.

  With `x` of shape [8192, 64], `y` [16384, 64], `pd` [8192, 16384], two weight matrices `wi`, `wy` [64, 64] (stored
  output-feature first, so a linear layer multiplies by the transpose) and two biases `bi`, `by_` [64], entry `(n, f)`
  of the result is

      ((∑ₖ x[n,k] · wi[f,k]) + bi[f]) + (∑ₖ (∑ⱼ pd[n,j] · y[j,k]) · wy[f,k]) + by_[f],

  the three additions grouped exactly as written (left to right). The inner sum over `j` — row `n` of the propagated
  features `pd · y` at column `k` — is named `propagated`; it is the only place where the two programs differ (one
  sums the 16384 products in one sweep, the other in eight blocks of 2048).
-/
import Idealize.ShloMosaic.PureOps.Ideal
import Idealize.ShloMosaic.Lib.ValueIdx

noncomputable section

namespace Cert.Spec

open Idealize.ShloMosaic Idealize.ShloMosaic.ValueIdx

/-- Entry `(n, k)` of `pd · y`: the sum over all 16384 neighbours `j` of `pd[n,j] · y[j,k]`. -/
def propagated (y : FVec Ideal ⟨2, ![16384, 64]⟩ .f32) (pd : FVec Ideal ⟨2, ![8192, 16384]⟩ .f32)
    (n : Fin 8192) (k : Fin 64) : EReal :=
  ∑ j : Fin 16384, pd (ix2 n j) * y (ix2 j k)

/-- The result array as a function of the seven arrays it depends on. -/
def G (x : FVec Ideal ⟨2, ![8192, 64]⟩ .f32) (y : FVec Ideal ⟨2, ![16384, 64]⟩ .f32)
    (pd : FVec Ideal ⟨2, ![8192, 16384]⟩ .f32) (wi : FVec Ideal ⟨2, ![64, 64]⟩ .f32) (bi : FVec Ideal ⟨1, ![64]⟩ .f32)
    (wy : FVec Ideal ⟨2, ![64, 64]⟩ .f32) (by_ : FVec Ideal ⟨1, ![64]⟩ .f32) : FVec Ideal ⟨2, ![8192, 64]⟩ .f32 :=
  fun i =>
    (((∑ k : Fin 64, x (ix2 (i 0) k) * wi (ix2 (i 1) k)) + bi (ix1 (i 1)))
      + ∑ k : Fin 64, propagated y pd (i 0) k * wy (ix2 (i 1) k))
    + by_ (ix1 (i 1))

/-- `G` at an index whose row is `n` and whose column is `f`. -/
theorem G_apply (x : FVec Ideal ⟨2, ![8192, 64]⟩ .f32) (y : FVec Ideal ⟨2, ![16384, 64]⟩ .f32)
    (pd : FVec Ideal ⟨2, ![8192, 16384]⟩ .f32) (wi : FVec Ideal ⟨2, ![64, 64]⟩ .f32) (bi : FVec Ideal ⟨1, ![64]⟩ .f32)
    (wy : FVec Ideal ⟨2, ![64, 64]⟩ .f32) (by_ : FVec Ideal ⟨1, ![64]⟩ .f32) (i : (⟨2, ![8192, 64]⟩ : Shape).Idx)
    (n : Fin 8192) (f : Fin 64) (hn : i 0 = n) (hf : i 1 = f) :
    G x y pd wi bi wy by_ i
      = (((∑ k : Fin 64, x (ix2 n k) * wi (ix2 f k)) + bi (ix1 f))
          + ∑ k : Fin 64, propagated y pd n k * wy (ix2 f k))
        + by_ (ix1 f) := by
  subst hn hf; rfl

end Cert.Spec

end
-- ==== Proof.RefIsSpec.lean ====
/-
  The reference program computes the specification.

  Its twelve host operations, read one at a time at an output index `(n, f)`, are: the matrix product `pd · y`
  (a sum over 16384 neighbours), two transposes of the weight matrices, two matrix products with the transposed weights
  (sums over 64 input features), two biases broadcast along the rows, and three additions. Reading a transposed
  matrix at `(k, f)` reads the matrix at `(f, k)`; reading a row-broadcast bias at `(n, f)` reads the bias at `f`. After
  those re-indexings the composed term is, literally, the specification's formula: no arithmetic law is used.
-/
import proofs.«159330_j23948737643049_2_alg».proof.Proof.Gen.ReferenceIdeal.Read
import proofs.«159330_j23948737643049_2_alg».proof.Proof.Spec

noncomputable section

namespace Cert.ReferenceIdeal.RefValue

open Cert.ReferenceIdeal Cert.ReferenceIdeal.Read Idealize.ShloMosaic Idealize.ShloMosaic.ValueIdx

/-! ### Where each operation reads its operands, at explicit coordinates -/

/-- `pd · y` at `(n, k)` reads `pd` at `(n, j)` … -/
theorem lidx_v0 (n : Fin 8192) (k : Fin 64) (j : Fin 16384) : lidx_main_v0 (ix2 n k) j = ix2 n j :=
  funext fun a => by match a with | ⟨0, _⟩ => rfl | ⟨1, _⟩ => rfl
/-- … and `y` at `(j, k)`. -/
theorem ridx_v0 (n : Fin 8192) (k : Fin 64) (j : Fin 16384) : ridx_main_v0 (ix2 n k) j = ix2 j k :=
  funext fun a => by match a with | ⟨0, _⟩ => rfl | ⟨1, _⟩ => rfl
/-- `x · wiᵀ` at `(n, f)` reads `x` at `(n, k)` … -/
theorem lidx_v2 (n : Fin 8192) (f : Fin 64) (k : Fin 64) : lidx_main_v2 (ix2 n f) k = ix2 n k :=
  funext fun a => by match a with | ⟨0, _⟩ => rfl | ⟨1, _⟩ => rfl
/-- … and the transposed weights at `(k, f)`, … -/
theorem ridx_v2 (n : Fin 8192) (f : Fin 64) (k : Fin 64) : ridx_main_v2 (ix2 n f) k = ix2 k f :=
  funext fun a => by match a with | ⟨0, _⟩ => rfl | ⟨1, _⟩ => rfl
/-- … that is the weights at `(f, k)`. -/
theorem idx_v1 (k f : Fin 64) : idx_main_v1 (ix2 k f) = ix2 f k :=
  funext fun a => by match a with | ⟨0, _⟩ => rfl | ⟨1, _⟩ => rfl
/-- The same three for `(pd · y) · wyᵀ`. -/
theorem lidx_v7 (n : Fin 8192) (f : Fin 64) (k : Fin 64) : lidx_main_v7 (ix2 n f) k = ix2 n k :=
  funext fun a => by match a with | ⟨0, _⟩ => rfl | ⟨1, _⟩ => rfl
theorem ridx_v7 (n : Fin 8192) (f : Fin 64) (k : Fin 64) : ridx_main_v7 (ix2 n f) k = ix2 k f :=
  funext fun a => by match a with | ⟨0, _⟩ => rfl | ⟨1, _⟩ => rfl
theorem idx_v6 (k f : Fin 64) : idx_main_v6 (ix2 k f) = ix2 f k :=
  funext fun a => by match a with | ⟨0, _⟩ => rfl | ⟨1, _⟩ => rfl
/-- A bias broadcast to one row and then along the 8192 rows, read at `(n, f)`, is the bias at `f`. -/
theorem idx_v3_v4 (n : Fin 8192) (f : Fin 64) : idx_main_v3 (idx_main_v4 (ix2 n f)) = ix1 f :=
  funext fun a => by match a with | ⟨0, _⟩ => rfl
theorem idx_v9_v10 (n : Fin 8192) (f : Fin 64) : idx_main_v9 (idx_main_v10 (ix2 n f)) = ix1 f :=
  funext fun a => by match a with | ⟨0, _⟩ => rfl

/-! ### The composed term is the specification -/

/-- The reference's result, as a function of the arrays it reads, is `Spec.G`. -/
theorem ref_eq (x0 : (⟨S8192x64, .f32⟩ : BufTy).Contents (Elt Ideal)) (x1 : (⟨S16384x64, .f32⟩ : BufTy).Contents (Elt Ideal))
    (x5 : (⟨S8192x16384, .f32⟩ : BufTy).Contents (Elt Ideal)) (x6 : (⟨S64x64, .f32⟩ : BufTy).Contents (Elt Ideal))
    (x7 : (⟨S64, .f32⟩ : BufTy).Contents (Elt Ideal)) (x8 : (⟨S64x64, .f32⟩ : BufTy).Contents (Elt Ideal))
    (x9 : (⟨S64, .f32⟩ : BufTy).Contents (Elt Ideal)) :
    val_main_v11 (F := Ideal) x0 x1 x5 x6 x7 x8 x9 = Cert.Spec.G x0 x1 x5 x6 x7 x8 x9 := by
  funext i
  obtain ⟨n, f, rfl⟩ : ∃ (n : Fin 8192) (f : Fin 64), i = ix2 n f := ⟨i 0, i 1, eq_ix2 i⟩
  rw [val_main_v11_apply, val_main_v8_apply, val_main_v5_apply, val_main_v2_apply, val_main_v4_apply, val_main_v3_apply,
    val_main_v7_apply, val_main_v10_apply, val_main_v9_apply]
  simp only [val_main_v1_apply, val_main_v6_apply, val_main_v0_apply, lidx_v2, ridx_v2, idx_v1, lidx_v7, ridx_v7, idx_v6,
    lidx_v0, ridx_v0, idx_v3_v4, idx_v9_v10, Ideal.addf_def]
  rfl

end Cert.ReferenceIdeal.RefValue

end
-- ==== Proof.Pieces.lean ====
/-
  What one grid point leaves behind, as pure terms of what it loads.

  A grid point `(i, j)` of the kernel works on three whole staging buffers it loads through (`x`'s row block, `pd`'s
  `1024 × 2048` block, the two weight matrices and biases), on the `2048` rows of `y` starting at row `2048 · j`
  (`yRows` below: a load of the resident `y` at that row offset), and on the accumulator it carries from the point
  before. Whatever the column `j`, the accumulator ends at

      carried + pd_block · yRows         (`k0_pay2`),

  where at `j = 0` "carried" is the block of zeros just stored (`k0_pay1`), and at `j = 7` the output block is, of that
  new accumulator,

      ((x_block · wiᵀ + bi) + accumulator · wyᵀ) + by         (`k0_pay3`).

  The four lemmas say exactly this of the terms the generated frame names for the three control cases
  (A: first column, B: a middle column, C: last column). They hold at every float instance: nothing is computed here,
  the stores' payloads are only read back through the whole-buffer rectangles they were written through.
-/
import proofs.«159330_j23948737643049_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- The `2048` rows of the resident `y` that the point with grid coordinates `i` multiplies by: rows `2048 · i₁ + q`. -/
abbrev yRows (i : grid0.Coords) (x2 : Vec F S16384x64 .f32) : Vec F S2048x64 .f32 :=
  View.ld x2 (Rect.unit (s := S16384x64) (k0_off1 i) S2048x64.size (k0_off1_inb i))

/-- A middle column: the accumulator becomes the carried one plus this column block's product. -/
theorem scratch_B (c : Dev nD) (i : grid0.Coords) (a2 : Memref sig .tc .vmem S1024x64 .f32) (h2 : a2.IsWhole) (a3 : Memref sig .tc .vmem S1024x2048 .f32) (h3 : a3.IsWhole) (a4 : Memref sig .tc .vmem S16384x64 .f32) (h4 : a4.IsWhole) (a5 : Memref sig .tc .vmem S64x64 .f32) (h5 : a5.IsWhole) (a6 : Memref sig .tc .vmem S1x64 .f32) (h6 : a6.IsWhole) (a7 : Memref sig .tc .vmem S64x64 .f32) (h7 : a7.IsWhole) (a8 : Memref sig .tc .vmem S1x64 .f32) (h8 : a8.IsWhole) (a9 : Memref sig .tc .vmem S1024x64 .f32) (h9 : a9.IsWhole) (a10 : Memref sig .tc .vmem S1024x64 .f32) (h10 : a10.IsWhole) (hc0 : ¬cond0_0 i) (hc1 : ¬cond0_1 i) (x0 : Vec F S1024x64 .f32) (x1 : Vec F S1024x2048 .f32) (x2 : Vec F S16384x64 .f32) (x3 : Vec F S64x64 .f32) (x4 : Vec F S1x64 .f32) (x5 : Vec F S64x64 .f32) (x6 : Vec F S1x64 .f32) (xs0 : Vec F S1024x64 .f32) :
    sout0_B_0 c i a2 h2 a3 h3 a4 h4 a5 h5 a6 h6 a7 h7 a8 h8 a9 h9 a10 h10 hc0 hc1 x0 x1 x2 x3 x4 x5 x6 xs0 = k0_pay2 (yRows i x2) x1 xs0 := by
  unfold sout0_B_0
  rw [View.read_writes_eq_canon _ _ _ (scover0_B_0 c i a2 h2 a3 h3 a4 h4 a5 h5 a6 h6 a7 h7 a8 h8 a9 h9 a10 h10 hc0 hc1 x0 x1 x2 x3 x4 x5 x6 xs0)]
  unfold kernelRun0_B
  dsimp only
  rw [View.canon_unit_zero hz]
  simp only [View.readAt_eq_ld, h3.read_unread, h4.read_unread, h10.read_unread, View.ld_unit_zero (S := S1024x2048) hz,
    View.ld_unit_zero (S := S1024x64) hz]

/-- The last column: the same update of the accumulator … -/
theorem scratch_C (c : Dev nD) (i : grid0.Coords) (a2 : Memref sig .tc .vmem S1024x64 .f32) (h2 : a2.IsWhole) (a3 : Memref sig .tc .vmem S1024x2048 .f32) (h3 : a3.IsWhole) (a4 : Memref sig .tc .vmem S16384x64 .f32) (h4 : a4.IsWhole) (a5 : Memref sig .tc .vmem S64x64 .f32) (h5 : a5.IsWhole) (a6 : Memref sig .tc .vmem S1x64 .f32) (h6 : a6.IsWhole) (a7 : Memref sig .tc .vmem S64x64 .f32) (h7 : a7.IsWhole) (a8 : Memref sig .tc .vmem S1x64 .f32) (h8 : a8.IsWhole) (a9 : Memref sig .tc .vmem S1024x64 .f32) (h9 : a9.IsWhole) (a10 : Memref sig .tc .vmem S1024x64 .f32) (h10 : a10.IsWhole) (hc0 : ¬cond0_0 i) (hc1 : cond0_1 i) (x0 : Vec F S1024x64 .f32) (x1 : Vec F S1024x2048 .f32) (x2 : Vec F S16384x64 .f32) (x3 : Vec F S64x64 .f32) (x4 : Vec F S1x64 .f32) (x5 : Vec F S64x64 .f32) (x6 : Vec F S1x64 .f32) (xs0 : Vec F S1024x64 .f32) :
    sout0_C_0 c i a2 h2 a3 h3 a4 h4 a5 h5 a6 h6 a7 h7 a8 h8 a9 h9 a10 h10 hc0 hc1 x0 x1 x2 x3 x4 x5 x6 xs0 = k0_pay2 (yRows i x2) x1 xs0 := by
  unfold sout0_C_0
  rw [View.read_writes_eq_canon _ _ _ (scover0_C_0 c i a2 h2 a3 h3 a4 h4 a5 h5 a6 h6 a7 h7 a8 h8 a9 h9 a10 h10 hc0 hc1 x0 x1 x2 x3 x4 x5 x6 xs0)]
  unfold kernelRun0_C
  dsimp only
  sl_unfold_words
  rw [View.canon_unit_zero hz]
  simp only [View.readAt_eq_ld, h3.read_unread, h4.read_unread, h10.read_unread, View.ld_unit_zero (S := S1024x2048) hz,
    View.ld_unit_zero (S := S1024x64) hz]
  rfl

/-- … and the output block is the two linear layers of `x`'s block and of that updated accumulator. -/
theorem out_C (c : Dev nD) (i : grid0.Coords) (a2 : Memref sig .tc .vmem S1024x64 .f32) (h2 : a2.IsWhole) (a3 : Memref sig .tc .vmem S1024x2048 .f32) (h3 : a3.IsWhole) (a4 : Memref sig .tc .vmem S16384x64 .f32) (h4 : a4.IsWhole) (a5 : Memref sig .tc .vmem S64x64 .f32) (h5 : a5.IsWhole) (a6 : Memref sig .tc .vmem S1x64 .f32) (h6 : a6.IsWhole) (a7 : Memref sig .tc .vmem S64x64 .f32) (h7 : a7.IsWhole) (a8 : Memref sig .tc .vmem S1x64 .f32) (h8 : a8.IsWhole) (a9 : Memref sig .tc .vmem S1024x64 .f32) (h9 : a9.IsWhole) (a10 : Memref sig .tc .vmem S1024x64 .f32) (h10 : a10.IsWhole) (hc0 : ¬cond0_0 i) (hc1 : cond0_1 i) (x0 : Vec F S1024x64 .f32) (x1 : Vec F S1024x2048 .f32) (x2 : Vec F S16384x64 .f32) (x3 : Vec F S64x64 .f32) (x4 : Vec F S1x64 .f32) (x5 : Vec F S64x64 .f32) (x6 : Vec F S1x64 .f32) (xs0 : Vec F S1024x64 .f32) :
    out0_C_7 c i a2 h2 a3 h3 a4 h4 a5 h5 a6 h6 a7 h7 a8 h8 a9 h9 a10 h10 hc0 hc1 x0 x1 x2 x3 x4 x5 x6 xs0 = k0_pay3 x0 x3 x4 (k0_pay2 (yRows i x2) x1 xs0) x5 x6 := by
  unfold out0_C_7
  rw [View.read_writes_eq_canon _ _ _ (cover0_C_7 c i a2 h2 a3 h3 a4 h4 a5 h5 a6 h6 a7 h7 a8 h8 a9 h9 a10 h10 hc0 hc1 x0 x1 x2 x3 x4 x5 x6 xs0)]
  unfold kernelRun0_C
  dsimp only
  sl_unfold_words
  rw [View.canon_unit_zero hz, View.readCov_unit_zero (S := S1024x64) _ hz]
  simp only [View.readAt_eq_ld, h2.read_unread, h3.read_unread, h4.read_unread, h5.read_unread, h6.read_unread, h7.read_unread,
    h8.read_unread, h10.read_unread, View.ld_unit_zero (S := S1024x2048) hz, View.ld_unit_zero (S := S1024x64) hz,
    View.ld_unit_zero (S := S64x64) hz, View.ld_unit_zero (S := S1x64) hz]
  rfl

/-- The first column: zeros are stored, read back, and this column block's product is added to them. -/
theorem scratch_A (c : Dev nD) (i : grid0.Coords) (a2 : Memref sig .tc .vmem S1024x64 .f32) (h2 : a2.IsWhole) (a3 : Memref sig .tc .vmem S1024x2048 .f32) (h3 : a3.IsWhole) (a4 : Memref sig .tc .vmem S16384x64 .f32) (h4 : a4.IsWhole) (a5 : Memref sig .tc .vmem S64x64 .f32) (h5 : a5.IsWhole) (a6 : Memref sig .tc .vmem S1x64 .f32) (h6 : a6.IsWhole) (a7 : Memref sig .tc .vmem S64x64 .f32) (h7 : a7.IsWhole) (a8 : Memref sig .tc .vmem S1x64 .f32) (h8 : a8.IsWhole) (a9 : Memref sig .tc .vmem S1024x64 .f32) (h9 : a9.IsWhole) (a10 : Memref sig .tc .vmem S1024x64 .f32) (h10 : a10.IsWhole) (hc0 : cond0_0 i) (hc1 : ¬cond0_1 i) (x0 : Vec F S1024x64 .f32) (x1 : Vec F S1024x2048 .f32) (x2 : Vec F S16384x64 .f32) (x3 : Vec F S64x64 .f32) (x4 : Vec F S1x64 .f32) (x5 : Vec F S64x64 .f32) (x6 : Vec F S1x64 .f32) :
    sout0_A_0 c i a2 h2 a3 h3 a4 h4 a5 h5 a6 h6 a7 h7 a8 h8 a9 h9 a10 h10 hc0 hc1 x0 x1 x2 x3 x4 x5 x6 = k0_pay2 (yRows i x2) x1 (k0_pay1 (F := F)) := by
  unfold sout0_A_0
  rw [View.read_writes_eq_canon _ _ _ (scover0_A_0 c i a2 h2 a3 h3 a4 h4 a5 h5 a6 h6 a7 h7 a8 h8 a9 h9 a10 h10 hc0 hc1 x0 x1 x2 x3 x4 x5 x6)]
  unfold kernelRun0_A
  dsimp only
  sl_unfold_words
  rw [View.canon_cons_unit_zero (S := S1024x64) hz, View.readCov_unit_zero (S := S1024x64) _ hz]
  simp only [View.readAt_eq_ld, h3.read_unread, h4.read_unread, View.ld_unit_zero (S := S1024x2048) hz]
  rfl

end Cert.KernelIdeal.Pieces

end
-- ==== Proof.PayloadAt.lean ====
/-
  The three payloads of the kernel body, read at one entry `(r, f)` of the `1024 × 64` block, on the extended reals.

  At the ideal instance a change of float format is the identity, a matrix product into a zero accumulator is the plain
  sum of products over the contracted axis, a `[1, 64]` row broadcast over `1024` rows reads the row, and a reshape to
  the same shape reads its operand. So

    * the zero block is `0` everywhere                                                           (`zeros_apply`);
    * `carried + pd_block · yRows` at `(r, f)` is `carried[r,f] + ∑_q pd_block[r,q] · yRows[q,f]`, the sum over the
      `2048` columns of the block                                                                (`accumulate_apply`);
    * `((x · wiT + bi) + acc · wyT) + by` at `(r, f)` is
      `((∑ₖ x[r,k] · wiT[k,f]) + bi[0,f]) + (∑ₖ acc[r,k] · wyT[k,f]) + by[0,f]`                 (`linear_apply`);
    * the `y` rows a point reads are rows `2048 · i₁ + q` of the resident `y`                    (`yRows_apply`).
-/
import proofs.«159330_j23948737643049_2_alg».proof.Proof.Pieces
import Idealize.ShloMosaic.Lib.ValueIdx
import Idealize.ShloMosaic.Lib.ValueLayout
import Idealize.ShloMosaic.PureOps.Ideal.Laws

noncomputable section

namespace Cert.KernelIdeal.PayloadAt

open Cert.KernelIdeal Cert.KernelIdeal.Gen Idealize.ShloMosaic Idealize.ShloMosaic.ValueIdx

/-- The dimension numbers of the block product `[1024, 2048] · [2048, 64]` … -/
abbrev DBlock : DotDims S1024x2048 S2048x64 S1024x64 := dot_S1024x2048_S2048x64_S1024x64_1_0_0_1_n_n
/-- … and of the two linear layers `[1024, 64] · [64, 64]`: both contract the left operand's columns with the right
    operand's rows. -/
abbrev DLinear : DotDims S1024x64 S64x64 S1024x64 := dot_S1024x64_S64x64_S1024x64_1_0_0_1_n_n

/-! ### Where a product reads its operands -/

theorem block_lhs0 (i : S1024x64.Idx) (q : DBlock.contr.Idx) : (DBlock.lhsIdx i q 0).val = (i 0).val := by
  unfold DotDims.lhsIdx
  rw [dif_neg (show ¬(0 : Fin S1024x2048.rank) ∈ DBlock.lhsBatch by decide),
    dif_pos (show (0 : Fin S1024x2048.rank) ∈ DBlock.lhsNonContracting by decide)]
  rfl
theorem block_rhs1 (i : S1024x64.Idx) (q : DBlock.contr.Idx) : (DBlock.rhsIdx i q 1).val = (i 1).val := by
  unfold DotDims.rhsIdx
  rw [dif_neg (show ¬(1 : Fin S2048x64.rank) ∈ DBlock.rhsBatch by decide),
    dif_pos (show (1 : Fin S2048x64.rank) ∈ DBlock.rhsNonContracting by decide)]
  rfl
theorem linear_lhs0 (i : S1024x64.Idx) (q : DLinear.contr.Idx) : (DLinear.lhsIdx i q 0).val = (i 0).val := by
  unfold DotDims.lhsIdx
  rw [dif_neg (show ¬(0 : Fin S1024x64.rank) ∈ DLinear.lhsBatch by decide),
    dif_pos (show (0 : Fin S1024x64.rank) ∈ DLinear.lhsNonContracting by decide)]
  rfl
theorem linear_rhs1 (i : S1024x64.Idx) (q : DLinear.contr.Idx) : (DLinear.rhsIdx i q 1).val = (i 1).val := by
  unfold DotDims.rhsIdx
  rw [dif_neg (show ¬(1 : Fin S64x64.rank) ∈ DLinear.rhsBatch by decide),
    dif_pos (show (1 : Fin S64x64.rank) ∈ DLinear.rhsNonContracting by decide)]
  rfl

/-- The block product into zeros, at `(r, f)`: row `r` of the left operand against column `f` of the right one. -/
theorem blockProduct_apply {φ₁ φ₂ : FTy} (l : FVec Ideal S1024x2048 φ₁) (rr : FVec Ideal S2048x64 φ₂) (r : Fin 1024) (f : Fin 64) :
    matmul DBlock none l rr (constant (F := Ideal) S1024x64 .f32 0x00000000#32) (ix2 r f)
      = ∑ q : Fin 2048, l (ix2 r q) * rr (ix2 q f) := by
  simp only [matmul]
  rw [Ideal.matmul_constant_zero_apply, ← Equiv.sum_comp (contrEquiv1 DBlock 2048 rfl rfl).symm]
  refine Finset.sum_congr rfl fun q _ => ?_
  have hq := contrEquiv1_symm_val DBlock 2048 rfl rfl q
  have el : DBlock.lhsIdx (ix2 r f) ((contrEquiv1 DBlock 2048 rfl rfl).symm q) = ix2 r q := funext fun a => Fin.ext (by
    match a with
    | ⟨0, _⟩ => exact block_lhs0 _ _
    | ⟨1, _⟩ => exact (DBlock.lhsIdx_val_of_single rfl _ _).trans hq)
  have er : DBlock.rhsIdx (ix2 r f) ((contrEquiv1 DBlock 2048 rfl rfl).symm q) = ix2 q f := funext fun a => Fin.ext (by
    match a with
    | ⟨0, _⟩ => exact (DBlock.rhsIdx_val_of_single rfl _ _).trans hq
    | ⟨1, _⟩ => exact block_rhs1 _ _)
  rw [el, er]

/-- A linear layer's product into zeros, at `(r, f)`. -/
theorem linearProduct_apply (l : FVec Ideal S1024x64 .f32) (rr : FVec Ideal S64x64 .f32) (r : Fin 1024) (f : Fin 64) :
    matmul DLinear (some .fp32) l rr (constant (F := Ideal) S1024x64 .f32 0x00000000#32) (ix2 r f)
      = ∑ k : Fin 64, l (ix2 r k) * rr (ix2 k f) := by
  simp only [matmul]
  rw [Ideal.matmul_constant_zero_apply, ← Equiv.sum_comp (contrEquiv1 DLinear 64 rfl rfl).symm]
  refine Finset.sum_congr rfl fun k _ => ?_
  have hk := contrEquiv1_symm_val DLinear 64 rfl rfl k
  have el : DLinear.lhsIdx (ix2 r f) ((contrEquiv1 DLinear 64 rfl rfl).symm k) = ix2 r k := funext fun a => Fin.ext (by
    match a with
    | ⟨0, _⟩ => exact linear_lhs0 _ _
    | ⟨1, _⟩ => exact (DLinear.lhsIdx_val_of_single rfl _ _).trans hk)
  have er : DLinear.rhsIdx (ix2 r f) ((contrEquiv1 DLinear 64 rfl rfl).symm k) = ix2 k f := funext fun a => Fin.ext (by
    match a with
    | ⟨0, _⟩ => exact (DLinear.rhsIdx_val_of_single rfl _ _).trans hk
    | ⟨1, _⟩ => exact linear_rhs1 _ _)
  rw [el, er]

/-! ### The payloads -/

/-- The block stored at the first column is zero everywhere. -/
theorem zeros_apply (j : S1024x64.Idx) : k0_pay1 (F := Ideal) j = 0 := by
  unfold k0_pay1
  refine (congrFun (shapeCast_self _ _) j).trans ?_
  exact Ideal.ofBits_zero_f32

/-- The accumulator after a point: what it carried plus row `r` of the `pd` block against column `f` of the `y` rows. -/
theorem accumulate_apply (ys : Vec Ideal S2048x64 .f32) (pb : Vec Ideal S1024x2048 .f32) (acc : Vec Ideal S1024x64 .f32)
    (r : Fin 1024) (f : Fin 64) :
    k0_pay2 (F := Ideal) ys pb acc (ix2 r f) = acc (ix2 r f) + ∑ q : Fin 2048, pb (ix2 r q) * ys (ix2 q f) := by
  unfold k0_pay2
  refine (congrFun (shapeCast_self _ _) (ix2 r f)).trans ?_
  exact congrArg (acc (ix2 r f) + ·) (blockProduct_apply (φ₁ := .bf16) (φ₂ := .bf16) pb ys r f)

/-- The output block: the two linear layers and their biases, grouped as the body adds them. -/
theorem linear_apply (x : Vec Ideal S1024x64 .f32) (wiT : Vec Ideal S64x64 .f32) (bi : Vec Ideal S1x64 .f32)
    (acc : Vec Ideal S1024x64 .f32) (wyT : Vec Ideal S64x64 .f32) (by_ : Vec Ideal S1x64 .f32) (r : Fin 1024) (f : Fin 64) :
    k0_pay3 (F := Ideal) x wiT bi acc wyT by_ (ix2 r f)
      = (((∑ k : Fin 64, x (ix2 r k) * wiT (ix2 k f)) + bi (ix2 (0 : Fin 1) f))
          + ∑ k : Fin 64, acc (ix2 r k) * wyT (ix2 k f))
        + by_ (ix2 (0 : Fin 1) f) := by
  unfold k0_pay3
  simp only [shapeCast_self]
  show ((matmul DLinear (some .fp32) x wiT (constant (F := Ideal) S1024x64 .f32 0x00000000#32) (ix2 r f)
        + broadcastTo S1024x64 bi broadcasts_S1x64_S1024x64 (ix2 r f))
      + matmul DLinear (some .fp32) acc wyT (constant (F := Ideal) S1024x64 .f32 0x00000000#32) (ix2 r f))
      + broadcastTo S1024x64 by_ broadcasts_S1x64_S1024x64 (ix2 r f) = _
  rw [linearProduct_apply, linearProduct_apply, broadcastTo_1b_ab_apply, broadcastTo_1b_ab_apply]

/-- The `y` rows of the point with grid coordinates `i`: row `q` of them is row `2048 · i₁ + q` of `y`. -/
theorem yRows_apply {F : FTy → Type} [FloatOps F] (i : grid0.Coords) (x2 : Vec F S16384x64 .f32) (q : Fin 2048) (f : Fin 64)
    (j : Fin 16384) (hj : j.val = 2048 * (i 1).val + q.val) :
    Pieces.yRows i x2 (ix2 q f) = x2 (ix2 j f) := by
  show x2 ((Rect.unit (s := S16384x64) (k0_off1 i) S2048x64.size (k0_off1_inb i)).idx (ix2 q f)) = _
  refine congrArg x2 (funext fun a => Fin.ext ?_)
  match a with
  | ⟨0, _⟩ =>
    show k0_off1 i 0 + 1 * q.val = j.val
    rw [k0_off1_eq i, hj]
    show 2048 * (i 1).val + 1 * q.val = _
    omega
  | ⟨1, _⟩ =>
    show k0_off1 i 1 + 1 * f.val = f.val
    rw [k0_off1_eq i]
    show 0 + 1 * f.val = _
    omega

end Cert.KernelIdeal.PayloadAt

end
-- ==== Proof.Blocks.lean ====
/-
  What each input block holds, entry by entry, in terms of the argument arrays.

  The grid has `64` points, point `t` being row tile `t / 8` and column block `t % 8`. At point `t`

    * `x`'s block is rows `1024 · (t / 8) + r` of `x`;
    * `pd`'s block is rows `1024 · (t / 8) + r`, columns `2048 · (t % 8) + q` of `pd`;
    * `y` is resident whole, and the two weight matrices and the two biases are single blocks, the same at every point.

  The weight matrices reach the kernel already transposed and the biases already reshaped to one row of `64` (four host
  operations before the call), so the staged weight block at `(k, f)` is the weight matrix at `(f, k)`, and the staged
  bias row at `(0, f)` is the bias at `f`. Every statement holds at any float instance: only indices move.
-/
import proofs.«159330_j23948737643049_2_alg».proof.Proof.Gen.KernelIdeal.Frame
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx
open Idealize.SL.Sem Idealize.ShloMosaic.StableHlo

variable {F : FTy → Type} [FloatOps F]
variable (m : (ℓ : Loc nD τ sig) → Buf (Elt F) ℓ)

/-- The printed index maps and the column coordinate, decided over the `64` grid points. -/
theorem idx_facts : ∀ t : Fin cfg0.N,
    win0_0.index t (0 : Fin 2) = t.val / 8 ∧ win0_0.index t (1 : Fin 2) = 0
    ∧ win0_1.index t (0 : Fin 2) = t.val / 8 ∧ win0_1.index t (1 : Fin 2) = t.val % 8
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val / 8 ∧ win0_7.index t (1 : Fin 2) = 0
    ∧ (grid0.coords t (1 : Fin 2)).val = t.val % 8 :=
  (by decide +kernel : ∀ t : Fin grid0.N, _)

/-- The column block of point `t` is `t % 8`. -/
theorem col_eq (t : Fin cfg0.N) : (grid0.coords t (1 : Fin 2)).val = t.val % 8 := (idx_facts t).2.2.2.2.2.2.2.2.2.2.2.2.2.2.2.2

/-- The output block of point `t` is row tile `t / 8`, the one column tile. -/
theorem out_idx (t : Fin cfg0.N) : win0_7.index t (0 : Fin 2) = t.val / 8 ∧ win0_7.index t (1 : Fin 2) = 0 :=
  ⟨(idx_facts t).2.2.2.2.2.2.2.2.2.2.2.2.2.2.1, (idx_facts t).2.2.2.2.2.2.2.2.2.2.2.2.2.2.2.1⟩

/-! ### The arrays the host operations before the call write -/

/-- The first weight matrix, transposed. -/
theorem V_wiT (c : Dev nD) : (V m c main_v0 : S64x64.Idx → Elt F .f32)
    = transpose S64x64 [1, 0] (m ((c : Thread nD τ).loc main_arg6)) transposes_S64x64_S64x64_1_0 := by
  dsimp only [Gen.V, Gen.hostOps0]; after_results
/-- The second weight matrix, transposed. -/
theorem V_wyT (c : Dev nD) : (V m c main_v1 : S64x64.Idx → Elt F .f32)
    = transpose S64x64 [1, 0] (m ((c : Thread nD τ).loc main_arg8)) transposes_S64x64_S64x64_1_0 := by
  dsimp only [Gen.V, Gen.hostOps0]; after_results
/-- The first bias as one row. -/
theorem V_biRow (c : Dev nD) : (V m c main_v2 : S1x64.Idx → Elt F .f32)
    = shapeCast S1x64 (m ((c : Thread nD τ).loc main_arg7)) shapeCasts_S64_S1x64 := by
  dsimp only [Gen.V, Gen.hostOps0]; after_results; rfl
/-- The second bias as one row. -/
theorem V_byRow (c : Dev nD) : (V m c main_v3 : S1x64.Idx → Elt F .f32)
    = shapeCast S1x64 (m ((c : Thread nD τ).loc main_arg9)) shapeCasts_S64_S1x64 := by
  dsimp only [Gen.V, Gen.hostOps0]; after_results; rfl

/-! ### The blocks, entry by entry -/

/-- `x`'s block at point `t`: rows `1024 · (t / 8) + r`. -/
theorem xBlock_apply (c : Dev nD) (t : Fin cfg0.N) (r : Fin 1024) (k : Fin 64) (n : Fin 8192)
    (hn : n.val = 1024 * (t.val / 8) + r.val) :
    (iblk m c 0 t : Vec F S1024x64 .f32) (ix2 r k) = m ((c : Thread nD τ).loc main_arg0) (ix2 n k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * r.val = n.val; rw [e0, hn]; omega
  | ⟨1, _⟩ => show win0_0.index t (1 : Fin 2) * 64 + 1 * k.val = k.val; rw [e1]; omega

/-- `pd`'s block at point `t`: rows `1024 · (t / 8) + r`, columns `2048 · (t % 8) + q`. -/
theorem pdBlock_apply (c : Dev nD) (t : Fin cfg0.N) (r : Fin 1024) (q : Fin 2048) (n : Fin 8192) (j : Fin 16384)
    (hn : n.val = 1024 * (t.val / 8) + r.val) (hj : j.val = 2048 * (t.val % 8) + q.val) :
    (iblk m c 1 t : Vec F S1024x2048 .f32) (ix2 r q) = m ((c : Thread nD τ).loc main_arg5) (ix2 n j) := by
  obtain ⟨-, -, e0, e1, -⟩ := idx_facts t
  unfold iblk
  rw [View.read_apply]
  show V m c main_arg5 _ = _
  rw [V_main_arg5]
  refine congrArg _ (funext fun a => Fin.ext ?_)
  match a with
  | ⟨0, _⟩ => show win0_1.index t (0 : Fin 2) * 1024 + 1 * r.val = n.val; rw [e0, hn]; omega
  | ⟨1, _⟩ => show win0_1.index t (1 : Fin 2) * 2048 + 1 * q.val = j.val; rw [e1, hj]; omega

/-- `y` is resident whole. -/
theorem yBlock_apply (c : Dev nD) (t : Fin cfg0.N) (j : Fin 16384) (f : Fin 64) :
    (iblk m c 2 t : Vec F S16384x64 .f32) (ix2 j f) = m ((c : Thread nD τ).loc main_arg1) (ix2 j f) := by
  obtain ⟨-, -, -, -, e0, e1, -⟩ := idx_facts t
  unfold iblk
  rw [View.read_apply]
  show V m c main_arg1 _ = _
  rw [V_main_arg1]
  refine congrArg _ (funext fun a => Fin.ext ?_)
  match a with
  | ⟨0, _⟩ => show win0_2.index t (0 : Fin 2) * 16384 + 1 * j.val = j.val; rw [e0]; omega
  | ⟨1, _⟩ => show win0_2.index t (1 : Fin 2) * 64 + 1 * f.val = f.val; rw [e1]; omega

/-- The staged first weight block at `(k, f)` is the weight matrix at `(f, k)`. -/
theorem wiBlock_apply (c : Dev nD) (t : Fin cfg0.N) (k f : Fin 64) :
    (iblk m c 3 t : Vec F S64x64 .f32) (ix2 k f) = m ((c : Thread nD τ).loc main_arg6) (ix2 f k) := by
  obtain ⟨-, -, -, -, -, -, e0, e1, -⟩ := idx_facts t
  unfold iblk
  rw [View.read_apply]
  show V m c main_v0 _ = _
  rw [V_wiT]
  refine Eq.trans (congrArg _ (funext fun a => Fin.ext ?_)) (transpose_ix2_apply _ transposes_S64x64_S64x64_1_0 k f)
  match a with
  | ⟨0, _⟩ => show win0_3.index t (0 : Fin 2) * 64 + 1 * k.val = k.val; rw [e0]; omega
  | ⟨1, _⟩ => show win0_3.index t (1 : Fin 2) * 64 + 1 * f.val = f.val; rw [e1]; omega

/-- The staged second weight block at `(k, f)` is the weight matrix at `(f, k)`. -/
theorem wyBlock_apply (c : Dev nD) (t : Fin cfg0.N) (k f : Fin 64) :
    (iblk m c 5 t : Vec F S64x64 .f32) (ix2 k f) = m ((c : Thread nD τ).loc main_arg8) (ix2 f k) := by
  obtain ⟨-, -, -, -, -, -, -, -, -, -, e0, e1, -⟩ := idx_facts t
  unfold iblk
  rw [View.read_apply]
  show V m c main_v1 _ = _
  rw [V_wyT]
  refine Eq.trans (congrArg _ (funext fun a => Fin.ext ?_)) (transpose_ix2_apply _ transposes_S64x64_S64x64_1_0 k f)
  match a with
  | ⟨0, _⟩ => show win0_5.index t (0 : Fin 2) * 64 + 1 * k.val = k.val; rw [e0]; omega
  | ⟨1, _⟩ => show win0_5.index t (1 : Fin 2) * 64 + 1 * f.val = f.val; rw [e1]; omega

/-- The staged first bias row at `(0, f)` is the bias at `f`. -/
theorem biBlock_apply (c : Dev nD) (t : Fin cfg0.N) (f : Fin 64) :
    (iblk m c 4 t : Vec F S1x64 .f32) (ix2 (0 : Fin 1) f) = m ((c : Thread nD τ).loc main_arg7) (ix1 f) := by
  obtain ⟨-, -, -, -, -, -, -, -, e0, e1, -⟩ := idx_facts t
  unfold iblk
  rw [View.read_apply]
  show V m c main_v2 _ = _
  rw [V_biRow]
  refine Eq.trans (congrArg _ (funext fun a => Fin.ext ?_)) (shapeCast_a_1a_apply _ shapeCasts_S64_S1x64 (0 : Fin 1) f)
  match a with
  | ⟨0, _⟩ => show win0_4.index t (0 : Fin 2) * 1 + 1 * 0 = 0; rw [e0]
  | ⟨1, _⟩ => show win0_4.index t (1 : Fin 2) * 64 + 1 * f.val = f.val; rw [e1]; omega

/-- The staged second bias row at `(0, f)` is the bias at `f`. -/
theorem byBlock_apply (c : Dev nD) (t : Fin cfg0.N) (f : Fin 64) :
    (iblk m c 6 t : Vec F S1x64 .f32) (ix2 (0 : Fin 1) f) = m ((c : Thread nD τ).loc main_arg9) (ix1 f) := by
  obtain ⟨-, -, -, -, -, -, -, -, -, -, -, -, e0, e1, -⟩ := idx_facts t
  unfold iblk
  rw [View.read_apply]
  show V m c main_v3 _ = _
  rw [V_byRow]
  refine Eq.trans (congrArg _ (funext fun a => Fin.ext ?_)) (shapeCast_a_1a_apply _ shapeCasts_S64_S1x64 (0 : Fin 1) f)
  match a with
  | ⟨0, _⟩ => show win0_6.index t (0 : Fin 2) * 1 + 1 * 0 = 0; rw [e0]
  | ⟨1, _⟩ => show win0_6.index t (1 : Fin 2) * 64 + 1 * f.val = f.val; rw [e1]; omega

end Cert.KernelIdeal.Blocks

end
-- ==== Proof.BlockSum.lean ====
/-
  A finite sum cut into consecutive blocks.

  Nothing here mentions a program. The facts are about a finite sum in an arbitrary commutative monoid, so they hold on
  the extended reals with no finiteness assumption: only commutativity and associativity of `+` are used, and those
  hold at `+∞` and `-∞` too.

  * `sum_blocks`: a sum over `a * b` consecutive indices is the sum over `a` blocks of the sum of the `b` indices
    inside each block, index `k = b * j + q` belonging to block `j` at position `q`.
  * `sum_range_blocks`: the same when the block sums are given as a sequence `s 0, s 1, …` indexed by naturals, the
    form in which a running total that adds one block per step presents them.
-/
import Mathlib.Algebra.BigOperators.Fin
import Mathlib.Logic.Equiv.Fin.Basic

namespace Cert.BlockSum

open Finset

variable {M : Type*} [AddCommMonoid M]

/-- The index `b * j + q` of position `q` inside block `j`, among `a * b` indices. -/
def at_ (a b : ℕ) (j : Fin a) (q : Fin b) : Fin (a * b) :=
  ⟨b * j.val + q.val, by
    calc b * j.val + q.val < b * j.val + b := Nat.add_lt_add_left q.isLt _
      _ = b * (j.val + 1) := (Nat.mul_add_one b j.val).symm
      _ ≤ b * a := Nat.mul_le_mul_left b j.isLt
      _ = a * b := Nat.mul_comm b a⟩

theorem at_val (a b : ℕ) (j : Fin a) (q : Fin b) : (at_ a b j q).val = b * j.val + q.val := rfl

/-- A sum over `a * b` indices, block by block. -/
theorem sum_blocks (a b : ℕ) (g : Fin (a * b) → M) :
    ∑ k : Fin (a * b), g k = ∑ j : Fin a, ∑ q : Fin b, g (at_ a b j q) := by
  rw [← Equiv.sum_comp finProdFinEquiv g, Fintype.sum_prod_type]
  refine Finset.sum_congr rfl fun j _ => Finset.sum_congr rfl fun q _ => congrArg g (Fin.ext ?_)
  simp only [finProdFinEquiv_apply_val, at_]
  omega

/-- The block sums listed as a sequence of naturals add up to the whole sum. -/
theorem sum_range_blocks (a b : ℕ) (g : Fin (a * b) → M) (s : ℕ → M)
    (hs : ∀ j : Fin a, s j.val = ∑ q : Fin b, g (at_ a b j q)) :
    ∑ l ∈ range a, s l = ∑ k : Fin (a * b), g k := by
  rw [sum_blocks, ← Fin.sum_univ_eq_sum_range]
  exact Finset.sum_congr rfl fun j _ => hs j

/-- The same over `Fin N` with `N = a * b` given as an equation, and the index of position `q` in block `j` given by
    any map `idx` whose value is `b * j + q`. -/
theorem sum_range_blocks_of_eq {N : ℕ} (a b : ℕ) (hN : a * b = N) (g : Fin N → M) (s : ℕ → M) (idx : Fin a → Fin b → Fin N)
    (hidx : ∀ j q, (idx j q).val = b * j.val + q.val) (hs : ∀ j : Fin a, s j.val = ∑ q : Fin b, g (idx j q)) :
    ∑ l ∈ range a, s l = ∑ k : Fin N, g k := by
  subst hN
  exact sum_range_blocks a b g s fun j =>
    (hs j).trans (Finset.sum_congr rfl fun q _ => congrArg g (Fin.ext ((hidx j q).trans (at_val a b j q).symm)))

end Cert.BlockSum
-- ==== Proof.Accumulator.lean ====
/-
  What the accumulator holds, and why its last value is a full row of `pd · y`.

  Fix a row tile (eight consecutive grid points `8a, 8a + 1, …, 8a + 7`) and an entry `(r, k)` of the accumulator.
  Point `n` adds to that entry its ADDEND

      addend n r k = ∑_{q < 2048} pd[1024 · (n / 8) + r, 2048 · (n % 8) + q] · y[2048 · (n % 8) + q, k],

  the part of the dot product of row `1024 · (n / 8) + r` of `pd` with column `k` of `y` that lies in column block
  `n % 8`. The first point of the tile starts from the zeros it has just stored, so after point `n` the entry is
  `0 + (addend (8a) + … + addend n)` (`scratch_apply`: the generated statement that the scratch is a fold of the points'
  updates, unrolled at an index). After the last point the eight addends are the eight blocks of one sum over all
  `16384 = 8 · 2048` columns, which is the specification's `propagated` (`last_apply`). The regrouping uses only that
  `+` on the extended reals is commutative and associative: no entry needs to be finite.
-/
import proofs.«159330_j23948737643049_2_alg».proof.Proof.Gen.KernelIdeal.Value
import proofs.«159330_j23948737643049_2_alg».proof.Proof.Pieces
import proofs.«159330_j23948737643049_2_alg».proof.Proof.PayloadAt
import proofs.«159330_j23948737643049_2_alg».proof.Proof.Blocks
import proofs.«159330_j23948737643049_2_alg».proof.Proof.BlockSum
import proofs.«159330_j23948737643049_2_alg».proof.Proof.Spec

noncomputable section

namespace Cert.KernelIdeal.Accumulator

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- Row `1024 · a + r` among the `8192` (reduced modulo `8192` so that it is an index for every natural `a`; for a row
    tile `a < 8` nothing is reduced). -/
def rowOf (a : ℕ) (r : Fin 1024) : Fin 8192 := ⟨(1024 * a + r.val) % 8192, Nat.mod_lt _ (by decide)⟩
/-- Column `2048 · b + q` among the `16384`, likewise. -/
def colOf (b : ℕ) (q : Fin 2048) : Fin 16384 := ⟨(2048 * b + q.val) % 16384, Nat.mod_lt _ (by decide)⟩

theorem rowOf_val (a : ℕ) (r : Fin 1024) (ha : a < 8) : (rowOf a r).val = 1024 * a + r.val := by
  show (1024 * a + r.val) % 8192 = _
  have := r.isLt
  omega
theorem colOf_val (b : ℕ) (q : Fin 2048) (hb : b < 8) : (colOf b q).val = 2048 * b + q.val := by
  show (2048 * b + q.val) % 16384 = _
  have := q.isLt
  omega

/-- The argument `pd`, as an array of extended reals. -/
abbrev pdArr (c : Dev nD) : FVec Ideal S8192x16384 .f32 := m ((c : Thread nD τ).loc main_arg5)
/-- The argument `y`, as an array of extended reals. -/
abbrev yArr (c : Dev nD) : FVec Ideal S16384x64 .f32 := m ((c : Thread nD τ).loc main_arg1)

/-- What point `n` adds to entry `(r, k)` of its row tile's accumulator. -/
def addend (c : Dev nD) (n : ℕ) (r : Fin 1024) (k : Fin 64) : EReal :=
  ∑ q : Fin 2048, pdArr m c (ix2 (rowOf (n / 8) r) (colOf (n % 8) q)) * yArr m c (ix2 (colOf (n % 8) q) k)

/-- One point's update of the accumulator at an entry: the carried value plus the point's addend. -/
theorem step_apply (c : Dev nD) (t : Fin cfg0.N) (acc : Vec Ideal S1024x64 .f32) (r : Fin 1024) (k : Fin 64) :
    k0_pay2 (F := Ideal) (Pieces.yRows (grid0.coords t) (iblk m c 2 t)) (iblk m c 1 t) acc (ix2 r k)
      = acc (ix2 r k) + addend m c t.val r k := by
  have hN : t.val < 64 := lt_of_lt_of_eq t.isLt (show cfg0.N = 64 from N_0)
  refine (PayloadAt.accumulate_apply (Pieces.yRows (grid0.coords t) (iblk m c 2 t)) (iblk m c 1 t) acc r k).trans ?_
  refine congrArg (acc (ix2 r k) + ·) (Finset.sum_congr rfl fun q _ => ?_)
  rw [Blocks.pdBlock_apply m c t r q (rowOf (t.val / 8) r) (colOf (t.val % 8) q) (rowOf_val _ _ (by omega)) (colOf_val _ _ (by omega)),
    PayloadAt.yRows_apply (grid0.coords t) (iblk m c 2 t) q k (colOf (t.val % 8) q)
      (by rw [colOf_val _ _ (by omega), Blocks.col_eq t]),
    Blocks.yBlock_apply m c t]

/-- THE ACCUMULATOR AFTER POINT `n`, at an entry: zero plus the addends of the row tile's points up to `n`. -/
theorem scratch_apply (c : Dev nD) (n : ℕ) (hn : n < cfg0.N) (r : Fin 1024) (k : Fin 64) :
    (outsAt0 m c n hn).2 (ix2 r k) = 0 + ∑ s ∈ Finset.range (n % 8 + 1), addend m c (8 * (n / 8) + s) r k := by
  have hN : cfg0.N = 64 := N_0
  refine (congrFun (Value.soutsAt0_0_eq m c ⟨n, hn⟩) (ix2 r k)).trans ?_
  refine Pipeline.accAt_add_apply (N := cfg0.N)
    (fun n h => Value.scAt0_0 m c n h (VS0_0.read (Elt Ideal) VS0_0.junk)) (Value.scAt0_0 m c)
    (fun _ => 0) (fun n i => addend m c n (i 0) (i 1)) (8 * (n / 8)) 7 ?_ ?_ (n % 8) (by omega) _ (ix2 r k)
  · -- the row tile's first point: zeros are stored, then the first addend added
    intro h i
    obtain ⟨r, k, rfl⟩ : ∃ (r : Fin 1024) (k : Fin 64), i = ix2 r k := ⟨i 0, i 1, eq_ix2 i⟩
    have h0 : (8 * (n / 8)) % 8 = 0 := by omega
    have h1 : ¬(8 * (n / 8)) % 8 = 7 := by omega
    show Value.scAt0_0 m c (8 * (n / 8)) h (VS0_0.read (Elt Ideal) VS0_0.junk) (ix2 r k) = 0 + addend m c (8 * (n / 8)) r k
    unfold Value.scAt0_0
    rw [dif_pos h0, dif_neg h1]
    refine (congrFun (Pieces.scratch_A c (grid0.coords (⟨8 * (n / 8), h⟩ : Fin cfg0.N)) (ms0_0 (⟨8 * (n / 8), h⟩ : Fin cfg0.N)) (hs0_0 (⟨8 * (n / 8), h⟩ : Fin cfg0.N)) (ms0_1 (⟨8 * (n / 8), h⟩ : Fin cfg0.N)) (hs0_1 (⟨8 * (n / 8), h⟩ : Fin cfg0.N)) (ms0_2 (⟨8 * (n / 8), h⟩ : Fin cfg0.N)) (hs0_2 (⟨8 * (n / 8), h⟩ : Fin cfg0.N)) (ms0_3 (⟨8 * (n / 8), h⟩ : Fin cfg0.N)) (hs0_3 (⟨8 * (n / 8), h⟩ : Fin cfg0.N)) (ms0_4 (⟨8 * (n / 8), h⟩ : Fin cfg0.N)) (hs0_4 (⟨8 * (n / 8), h⟩ : Fin cfg0.N)) (ms0_5 (⟨8 * (n / 8), h⟩ : Fin cfg0.N)) (hs0_5 (⟨8 * (n / 8), h⟩ : Fin cfg0.N)) (ms0_6 (⟨8 * (n / 8), h⟩ : Fin cfg0.N)) (hs0_6 (⟨8 * (n / 8), h⟩ : Fin cfg0.N)) (ms0_7 (⟨8 * (n / 8), h⟩ : Fin cfg0.N)) (hs0_7 (⟨8 * (n / 8), h⟩ : Fin cfg0.N)) scM0_0 (Memref.isWhole_whole _) _ _ (iblk m c 0 (⟨8 * (n / 8), h⟩ : Fin cfg0.N)) (iblk m c 1 (⟨8 * (n / 8), h⟩ : Fin cfg0.N)) (iblk m c 2 (⟨8 * (n / 8), h⟩ : Fin cfg0.N)) (iblk m c 3 (⟨8 * (n / 8), h⟩ : Fin cfg0.N)) (iblk m c 4 (⟨8 * (n / 8), h⟩ : Fin cfg0.N)) (iblk m c 5 (⟨8 * (n / 8), h⟩ : Fin cfg0.N)) (iblk m c 6 (⟨8 * (n / 8), h⟩ : Fin cfg0.N))) (ix2 r k)).trans ?_
    refine (step_apply m c ⟨8 * (n / 8), h⟩ (k0_pay1 (F := Ideal)) r k).trans ?_
    rw [PayloadAt.zeros_apply]
  · -- a later point of the tile: the carried value, then this point's addend added
    intro p h acc i hlt hle
    obtain ⟨r, k, rfl⟩ : ∃ (r : Fin 1024) (k : Fin 64), i = ix2 r k := ⟨i 0, i 1, eq_ix2 i⟩
    have h0 : ¬p % 8 = 0 := by omega
    show Value.scAt0_0 m c p h acc (ix2 r k) = acc (ix2 r k) + addend m c p r k
    unfold Value.scAt0_0
    by_cases h1 : p % 8 = 7
    · rw [dif_neg h0, dif_pos h1]
      refine (congrFun (Pieces.scratch_C c (grid0.coords (⟨p, h⟩ : Fin cfg0.N)) (ms0_0 (⟨p, h⟩ : Fin cfg0.N)) (hs0_0 (⟨p, h⟩ : Fin cfg0.N)) (ms0_1 (⟨p, h⟩ : Fin cfg0.N)) (hs0_1 (⟨p, h⟩ : Fin cfg0.N)) (ms0_2 (⟨p, h⟩ : Fin cfg0.N)) (hs0_2 (⟨p, h⟩ : Fin cfg0.N)) (ms0_3 (⟨p, h⟩ : Fin cfg0.N)) (hs0_3 (⟨p, h⟩ : Fin cfg0.N)) (ms0_4 (⟨p, h⟩ : Fin cfg0.N)) (hs0_4 (⟨p, h⟩ : Fin cfg0.N)) (ms0_5 (⟨p, h⟩ : Fin cfg0.N)) (hs0_5 (⟨p, h⟩ : Fin cfg0.N)) (ms0_6 (⟨p, h⟩ : Fin cfg0.N)) (hs0_6 (⟨p, h⟩ : Fin cfg0.N)) (ms0_7 (⟨p, h⟩ : Fin cfg0.N)) (hs0_7 (⟨p, h⟩ : Fin cfg0.N)) scM0_0 (Memref.isWhole_whole _) _ _ (iblk m c 0 (⟨p, h⟩ : Fin cfg0.N)) (iblk m c 1 (⟨p, h⟩ : Fin cfg0.N)) (iblk m c 2 (⟨p, h⟩ : Fin cfg0.N)) (iblk m c 3 (⟨p, h⟩ : Fin cfg0.N)) (iblk m c 4 (⟨p, h⟩ : Fin cfg0.N)) (iblk m c 5 (⟨p, h⟩ : Fin cfg0.N)) (iblk m c 6 (⟨p, h⟩ : Fin cfg0.N)) acc) (ix2 r k)).trans ?_
      exact step_apply m c ⟨p, h⟩ acc r k
    · rw [dif_neg h0, dif_neg h1]
      refine (congrFun (Pieces.scratch_B c (grid0.coords (⟨p, h⟩ : Fin cfg0.N)) (ms0_0 (⟨p, h⟩ : Fin cfg0.N)) (hs0_0 (⟨p, h⟩ : Fin cfg0.N)) (ms0_1 (⟨p, h⟩ : Fin cfg0.N)) (hs0_1 (⟨p, h⟩ : Fin cfg0.N)) (ms0_2 (⟨p, h⟩ : Fin cfg0.N)) (hs0_2 (⟨p, h⟩ : Fin cfg0.N)) (ms0_3 (⟨p, h⟩ : Fin cfg0.N)) (hs0_3 (⟨p, h⟩ : Fin cfg0.N)) (ms0_4 (⟨p, h⟩ : Fin cfg0.N)) (hs0_4 (⟨p, h⟩ : Fin cfg0.N)) (ms0_5 (⟨p, h⟩ : Fin cfg0.N)) (hs0_5 (⟨p, h⟩ : Fin cfg0.N)) (ms0_6 (⟨p, h⟩ : Fin cfg0.N)) (hs0_6 (⟨p, h⟩ : Fin cfg0.N)) (ms0_7 (⟨p, h⟩ : Fin cfg0.N)) (hs0_7 (⟨p, h⟩ : Fin cfg0.N)) scM0_0 (Memref.isWhole_whole _) _ _ (iblk m c 0 (⟨p, h⟩ : Fin cfg0.N)) (iblk m c 1 (⟨p, h⟩ : Fin cfg0.N)) (iblk m c 2 (⟨p, h⟩ : Fin cfg0.N)) (iblk m c 3 (⟨p, h⟩ : Fin cfg0.N)) (iblk m c 4 (⟨p, h⟩ : Fin cfg0.N)) (iblk m c 5 (⟨p, h⟩ : Fin cfg0.N)) (iblk m c 6 (⟨p, h⟩ : Fin cfg0.N)) acc) (ix2 r k)).trans ?_
      exact step_apply m c ⟨p, h⟩ acc r k

/-- THE LAST UPDATE OF A ROW TILE. At the tile's last point, the carried accumulator plus the last addend is, at entry
    `(r, k)`, the whole dot product of row `1024 · (t / 8) + r` of `pd` with column `k` of `y`. -/
theorem last_apply (c : Dev nD) (t : Fin cfg0.N) (h7 : t.val % 8 = 7) (r : Fin 1024) (k : Fin 64) (n : Fin 8192)
    (hn : n.val = 1024 * (t.val / 8) + r.val) :
    k0_pay2 (F := Ideal) (Pieces.yRows (grid0.coords t) (iblk m c 2 t)) (iblk m c 1 t)
        ((outsAt0 m c (t.val - 1) (Nat.lt_of_le_of_lt (Nat.sub_le _ _) t.isLt)).2) (ix2 r k)
      = Cert.Spec.propagated (m ((c : Thread nD τ).loc main_arg1)) (m ((c : Thread nD τ).loc main_arg5)) n k := by
  have hN : t.val < 64 := lt_of_lt_of_eq t.isLt (show cfg0.N = 64 from N_0)
  have e1 : (t.val - 1) % 8 + 1 = 7 := by omega
  have e2 : 8 * ((t.val - 1) / 8) = 8 * (t.val / 8) := by omega
  have e3 : t.val = 8 * (t.val / 8) + 7 := by omega
  rw [step_apply m c t _ r k, scratch_apply m c (t.val - 1) _ r k, e1, e2, zero_add,
    congrArg (fun p => addend m c p r k) e3,
    ← Finset.sum_range_succ (fun s => addend m c (8 * (t.val / 8) + s) r k) 7]
  refine BlockSum.sum_range_blocks_of_eq 8 2048 rfl
    (fun j : Fin 16384 => pdArr m c (ix2 n j) * yArr m c (ix2 j k))
    (fun s => addend m c (8 * (t.val / 8) + s) r k) (fun j q => colOf j.val q) (fun j q => colOf_val _ _ j.isLt) fun j => ?_
  have hj := j.isLt
  have hd : (8 * (t.val / 8) + j.val) / 8 = t.val / 8 := by omega
  have hm : (8 * (t.val / 8) + j.val) % 8 = j.val := by omega
  have hr : rowOf (t.val / 8) r = n := Fin.ext ((rowOf_val _ _ (by omega)).trans hn.symm)
  show (∑ q : Fin 2048, pdArr m c (ix2 (rowOf ((8 * (t.val / 8) + j.val) / 8) r) (colOf ((8 * (t.val / 8) + j.val) % 8) q))
      * yArr m c (ix2 (colOf ((8 * (t.val / 8) + j.val) % 8) q) k)) = _
  rw [hd, hm, hr]

end Cert.KernelIdeal.Accumulator

end
-- ==== Proof.Result.lean ====
/-
  The kernel's result array is the specification.

  The output is written back once per row tile, at the tile's last point (`t % 8 = 7`). What is written back there is
  the two linear layers of `x`'s block and of the accumulator just completed; entry `(r, f)` of the block sits at row
  `1024 · (t / 8) + r`, column `f` of the array, and — the accumulator being the full row of `pd · y`, the weight blocks
  the transposed weights, the bias rows the biases — it is the specification's entry there (`flushed_eq`). Row `n` of the
  array belongs to row tile `n / 1024`, so the eight write-backs cover the array (`cover`), and the array after the run
  is the specification of the argument arrays (`final`, `run`).
-/
import proofs.«159330_j23948737643049_2_alg».proof.Proof.Accumulator

noncomputable section

namespace Cert.KernelIdeal.Result

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The specification at this program's argument arrays, as contents of the result array. -/
abbrev result (c : Dev nD) : Buf (Elt Ideal) ((c : Thread nD τ).loc main_v4) :=
  Cert.Spec.G (m ((c : Thread nD τ).loc main_arg0)) (m ((c : Thread nD τ).loc main_arg1)) (m ((c : Thread nD τ).loc main_arg5))
    (m ((c : Thread nD τ).loc main_arg6)) (m ((c : Thread nD τ).loc main_arg7)) (m ((c : Thread nD τ).loc main_arg8))
    (m ((c : Thread nD τ).loc main_arg9))

/-- WHAT A ROW TILE'S LAST POINT WRITES BACK is that tile's block of the specification. -/
theorem flushed_eq (c : Dev nD) (t : Fin cfg0.N) (hf : (cfg0.win 7).flush t = true) :
    (dats m 0 c).flushed 7 t = ((cfg0.win 7).blk t).view.read (Elt Ideal) (result m c) := by
  have h7 : t.val % 8 = 7 := (flush0_7 t).mp hf
  have h0 : ¬t.val % 8 = 0 := by omega
  obtain ⟨e0, e1⟩ := Blocks.out_idx t
  rw [Value.flushed7_C m c t h0 h7]
  funext y
  obtain ⟨r, f, rfl⟩ : ∃ (r : Fin 1024) (f : Fin 64), y = ix2 r f := ⟨y 0, y 1, eq_ix2 y⟩
  rw [View.read_apply]
  -- where entry (r, f) of the block sits in the array
  have hn : ((((cfg0.win 7).blk t).view.emb (ix2 r f)) 0).val = 1024 * (t.val / 8) + r.val := by
    show win0_7.index t (0 : Fin 2) * 1024 + 1 * r.val = _
    rw [e0]; omega
  have hc : (((cfg0.win 7).blk t).view.emb (ix2 r f)) 1 = f := Fin.ext (by
    show win0_7.index t (1 : Fin 2) * 64 + 1 * f.val = f.val
    rw [e1]; omega)
  refine Eq.trans ?_ (Cert.Spec.G_apply _ _ _ _ _ _ _ _ _ f rfl hc).symm
  -- the block written back is the last case's output block
  show out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) _ _ (iblk m c 0 t) (iblk m c 1 t) (iblk m c 2 t) (iblk m c 3 t) (iblk m c 4 t) (iblk m c 5 t) (iblk m c 6 t) ((outsAt0 m c (t.val - 1) (Nat.lt_of_le_of_lt (Nat.sub_le _ _) t.isLt)).2) (ix2 r f) = _
  refine (congrFun (Pieces.out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) _ _ (iblk m c 0 t) (iblk m c 1 t) (iblk m c 2 t) (iblk m c 3 t) (iblk m c 4 t) (iblk m c 5 t) (iblk m c 6 t) ((outsAt0 m c (t.val - 1) (Nat.lt_of_le_of_lt (Nat.sub_le _ _) t.isLt)).2)) (ix2 r f)).trans ?_
  refine (PayloadAt.linear_apply (iblk m c 0 t) (iblk m c 3 t) (iblk m c 4 t)
    (k0_pay2 (F := Ideal) (Pieces.yRows (grid0.coords t) (iblk m c 2 t)) (iblk m c 1 t) ((outsAt0 m c (t.val - 1) (Nat.lt_of_le_of_lt (Nat.sub_le _ _) t.isLt)).2))
    (iblk m c 5 t) (iblk m c 6 t) r f).trans ?_
  simp only [fun k => Blocks.xBlock_apply m c t r k _ hn, Blocks.wiBlock_apply m c t, Blocks.biBlock_apply m c t,
    Blocks.wyBlock_apply m c t, Blocks.byBlock_apply m c t, fun k => Accumulator.last_apply m c t h7 r k _ hn]

/-- An index of the array is in point `t`'s block iff each coordinate is in the block's range on its axis. -/
theorem mem_blk (t : Fin cfg0.N) (i : S8192x64.Idx) :
    i ∈ ((cfg0.win 7).blk t).view.set
      ↔ ∀ a : Fin 2, win0_7.index t a * S1024x64.size a ≤ (i a).val ∧ (i a).val < win0_7.index t a * S1024x64.size a + S1024x64.size a := by
  show i ∈ ((View.whole main_v4).slice (win0_7.rect t)).set ↔ _
  rw [View.set_slice_whole, Rect.mem_set_unit]
  exact Iff.rfl

/-- Every index of the array is in the block some row tile's last point writes back: row `n` is in tile `n / 1024`. -/
theorem cover (i : S8192x64.Idx) :
    ∃ t : Fin cfg0.N, (cfg0.win 7).flush t = true ∧ i ∈ ((cfg0.win 7).blk t).view.set := by
  have hi0 : (i 0).val < 8192 := (i 0).isLt
  have hi1 : (i 1).val < 64 := (i 1).isLt
  have hN : cfg0.N = 64 := N_0
  have hb : 8 * ((i 0).val / 1024) + 7 < cfg0.N := by omega
  obtain ⟨e0, e1⟩ := Blocks.out_idx ⟨8 * ((i 0).val / 1024) + 7, hb⟩
  have ev : (⟨8 * ((i 0).val / 1024) + 7, hb⟩ : Fin cfg0.N).val = 8 * ((i 0).val / 1024) + 7 := rfl
  refine ⟨⟨8 * ((i 0).val / 1024) + 7, hb⟩, (flush0_7 _).mpr (by rw [ev]; omega), ?_⟩
  rw [mem_blk]
  intro a
  match a with
  | ⟨0, _⟩ =>
    show win0_7.index ⟨8 * ((i 0).val / 1024) + 7, hb⟩ (0 : Fin 2) * 1024 ≤ (i 0).val
      ∧ (i 0).val < win0_7.index ⟨8 * ((i 0).val / 1024) + 7, hb⟩ (0 : Fin 2) * 1024 + 1024
    rw [e0, ev]; omega
  | ⟨1, _⟩ =>
    show win0_7.index ⟨8 * ((i 0).val / 1024) + 7, hb⟩ (1 : Fin 2) * 64 ≤ (i 1).val
      ∧ (i 1).val < win0_7.index ⟨8 * ((i 0).val / 1024) + 7, hb⟩ (1 : Fin 2) * 64 + 64
    rw [e1]; omega

/-- THE RESULT ARRAY after the run is the specification of the argument arrays. -/
theorem final (c : Dev nD) : (dats m 0 c).arrAt 7 cfg0.N = result m c :=
  (dats m 0 c).arrAt_eq_of_cover 7 (result m c) (flushed_eq m c) cover

/-- The run, read: the result array at the specification, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Result

end
-- ==== Proof.lean ====
/-
  A graph-propagation layer: `out = (x · wiᵀ + bi) + (pd · y) · wyᵀ + by`, the kernel against its jnp reference, on the
  extended reals.

  THE TWO PROGRAMS. The reference forms `pd · y` (shape [8192, 64]) in one matrix product over all `16384` neighbours,
  then the two linear layers and three additions. The kernel walks a grid of `8 × 8` points: point `(a, j)` multiplies
  the `1024 × 2048` block of `pd` at row tile `a`, column block `j` by rows `2048 j … 2048 j + 2047` of `y` and adds the
  product into an accumulator it zeroes at `j = 0`; at `j = 7` it applies the two linear layers to `x`'s row tile and to
  the accumulator and writes row tile `a` of the result. The format changes of the block product's operands are the
  identity on the extended reals, and a matrix product into a zero accumulator is the plain sum of products.

  WHY THEY AGREE. Entry `(n, k)` of `pd · y` is a sum of `16384` products. The kernel computes
  `0 + B₀ + B₁ + … + B₇`, `Bⱼ` the sum of the `2048` products of column block `j`; the reference computes the one sum.
  These are equal because addition of extended reals is commutative and associative — which holds at `±∞` too, so the
  precondition (every input finite) is never used for the value, only carried. Everything after the accumulator is the
  same expression on both sides, grouped the same way: `((x · wiᵀ + bi) + acc · wyᵀ) + by`.

  THE PROOF, module by module. `Spec` states the common value `G`; `RefIsSpec` reads the reference's twelve host
  operations at an index and finds `G`; `Pieces` reads back what each kind of grid point stores, `PayloadAt` reads those
  stored terms at an entry, `Blocks` says which entries of the arguments each staged block holds, `Accumulator` unrolls
  the carried accumulator into `0 + ∑ addends` and regroups the last one into the full row of `pd · y` (`BlockSum`), and
  `Result` shows each write-back is a block of `G` and the write-backs cover the array. Below: the three frames
  (termination, no fault, arguments unchanged), the idealization (nothing was rewritten, so nothing to show), and the
  equality of the two results.
-/
import proofs.«159330_j23948737643049_2_alg».proof.Defs
import proofs.«159330_j23948737643049_2_alg».proof.Proof.Gen.Kernel
import proofs.«159330_j23948737643049_2_alg».proof.Proof.Gen.Kernel.Skeleton
import proofs.«159330_j23948737643049_2_alg».proof.Proof.Gen.Kernel.Launch
import proofs.«159330_j23948737643049_2_alg».proof.Proof.Gen.Kernel.Points
import proofs.«159330_j23948737643049_2_alg».proof.Proof.Gen.Kernel.Frame
import proofs.«159330_j23948737643049_2_alg».proof.Proof.Gen.KernelIdeal
import proofs.«159330_j23948737643049_2_alg».proof.Proof.Gen.KernelIdeal.Skeleton
import proofs.«159330_j23948737643049_2_alg».proof.Proof.Gen.KernelIdeal.Launch
import proofs.«159330_j23948737643049_2_alg».proof.Proof.Gen.KernelIdeal.Points
import proofs.«159330_j23948737643049_2_alg».proof.Proof.Gen.KernelIdeal.Frame
import proofs.«159330_j23948737643049_2_alg».proof.Proof.Gen.ReferenceIdeal
import proofs.«159330_j23948737643049_2_alg».proof.Proof.Gen.KernelIdeal.Value
import proofs.«159330_j23948737643049_2_alg».proof.Proof.Gen.ReferenceIdeal.Run
import proofs.«159330_j23948737643049_2_alg».proof.Proof.Gen.ReferenceIdeal.Read
import proofs.«159330_j23948737643049_2_alg».proof.Proof.Gen.Pre_finite_inputs
import proofs.«159330_j23948737643049_2_alg».proof.Proof.RefIsSpec
import proofs.«159330_j23948737643049_2_alg».proof.Proof.Result
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals: there is nothing to preserve. -/
theorem preserves : Cert.preserves_Kernel_KernelIdeal := trivial

/-- From memories that agree on the arguments both programs end with the same result array: the kernel's is the
    specification of its arguments (`Result.run`), the reference's composed term is the specification of its own
    (`RefValue.ref_eq`), and the arguments agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, -, -, -, a5, a6, a7, a8, a9⟩ := hagree c
  rw [Cert.ReferenceIdeal.Read.val_main_v11_eq, Cert.ReferenceIdeal.RefValue.ref_eq, a0, a1, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
